-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S8192 : Shape := ⟨1, ![8192]⟩
abbrev S_ : Shape := ⟨0, ![]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel

variable [Facts]

def fn {F : FTy → Type} [FloatOps F] (main_arg0 : FVec F S8192x10000 .f32) (main_arg1 : IVec S8192 32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  main_v3
-- ==== Kernel.lean ====
abbrev S8192x10000 : Shape := ⟨2, ![8192, 10000]⟩
abbrev S8192 : Shape := ⟨1, ![8192]⟩
abbrev S8192x1 : Shape := ⟨2, ![8192, 1]⟩
abbrev S2x1x1 : Shape := ⟨3, ![2, 1, 1]⟩
abbrev S128x10000 : Shape := ⟨2, ![128, 10000]⟩
abbrev S128x1 : Shape := ⟨2, ![128, 1]⟩
abbrev S1x1x1 : Shape := ⟨3, ![1, 1, 1]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192x1, .i32⟩
  | .hbm, ⟨3, _⟩ => ⟨S2x1x1, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x1, .i32⟩
  | .local _ .vmem, ⟨3, _⟩ => ⟨S128x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  inb_S1x1x1_S1x1x1_0_0_0 : ∀ a, (![0, 0, 0] : Fin 3 → Nat) a + S1x1x1.size a ≤ S1x1x1.size a
  h_S1x1x1 : 0 < S1x1x1.numel
  iota_S128x10000_d1_w32 : S128x10000.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x10000 : S128x1.Broadcasts S128x10000
  inb_S128x10000_S128x10000_0_0 : ∀ a, (![0, 0] : Fin 2 → Nat) a + S128x10000.size a ≤ S128x10000.size a
  h_S128x10000 : 0 < S128x10000.numel
  reduces_S128x10000_S128 : S128x10000.Reduces [1] S128
  shapeCasts_S128_S128x1 : S128.ShapeCasts S128x1
  reduces_S128x1_S1 : S128x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S8192 : Shape := ⟨1, ![8192]⟩
abbrev S10000 : Shape := ⟨1, ![10000]⟩
abbrev S1x10000 : Shape := ⟨2, ![1, 10000]⟩
abbrev S8192x1 : Shape := ⟨2, ![8192, 1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S10000, .i32⟩
  | .hbm, ⟨3, _⟩ => ⟨S1x10000, .i32⟩
  | .hbm, ⟨4, _⟩ => ⟨S8192x1, .i32⟩
  | .hbm, ⟨5, _⟩ => ⟨S8192x10000, .i32⟩
  | .hbm, ⟨6, _⟩ => ⟨S8192x10000, .i32⟩
  | .hbm, ⟨7, _⟩ => ⟨S8192x10000, .i1⟩
  | .hbm, ⟨8, _⟩ => ⟨S_, .f32⟩
  | .hbm, ⟨9, _⟩ => ⟨S_, .f32⟩
  | .hbm, ⟨10, _⟩ => ⟨S8192x10000, .f32⟩
  | .hbm, ⟨11, _⟩ => ⟨S8192x10000, .f32⟩
  | .hbm, ⟨12, _⟩ => ⟨S8192x10000, .f32⟩
  | .hbm, ⟨13, _⟩ => ⟨S_, .f32⟩
  | .hbm, ⟨14, _⟩ => ⟨S_, .f32⟩
  | .hbm, ⟨15, _⟩ => ⟨S8192x10000, .f32⟩
  | .hbm, ⟨16, _⟩ => ⟨S8192x10000, .f32⟩
  | .hbm, ⟨17, _⟩ => ⟨S8192x10000, .f32⟩
  | .hbm, ⟨18, _⟩ => ⟨S8192x10000, .f32⟩
  | .hbm, ⟨19, _⟩ => ⟨S8192x10000, .f32⟩
  | .hbm, ⟨20, _⟩ => ⟨S8192x10000, .f32⟩
  | .hbm, ⟨21, _⟩ => ⟨S8192x10000, .f32⟩
  | .hbm, ⟨22, _⟩ => ⟨S_, .f32⟩
  | .hbm, ⟨23, _⟩ => ⟨S8192x10000, .f32⟩
  | .hbm, ⟨24, _⟩ => ⟨S8192x10000, .f32⟩
  | .hbm, ⟨25, _⟩ => ⟨S_, .f32⟩
  | .hbm, ⟨26, _⟩ => ⟨S_, .f32⟩
  | .hbm, ⟨27, _⟩ => ⟨S8192x10000, .f32⟩
  | .hbm, ⟨28, _⟩ => ⟨S8192x10000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_v14 : Ref sig .tc := ⟨.hbm, 28, rfl⟩
abbrev main_cst_5 : Ref sig .tc := ⟨.hbm, 29, rfl⟩
abbrev main_cst_6 : Ref sig .tc := ⟨.hbm, 30, rfl⟩
abbrev main_v15 : Ref sig .tc := ⟨.hbm, 31, rfl⟩
abbrev main_cst_7 : Ref sig .tc := ⟨.hbm, 32, rfl⟩
abbrev main_v16 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  bcast_S10000_S1x10000_1 : S10000.BroadcastsInDim S1x10000 (![1] : Fin 1 → Fin S1x10000.rank)
  bcast_S8192_S8192x1_0 : S8192.BroadcastsInDim S8192x1 (![0] : Fin 1 → Fin S8192x1.rank)
  bcast_S1x10000_S8192x10000_0_1 : S1x10000.BroadcastsInDim S8192x10000 (![0, 1] : Fin 2 → Fin S8192x10000.rank)
  bcast_S8192x1_S8192x10000_0_1 : S8192x1.BroadcastsInDim S8192x10000 (![0, 1] : Fin 2 → Fin S8192x10000.rank)
  bcast_S_S8192x10000 : S_.BroadcastsInDim S8192x10000 (![] : Fin 0 → Fin S8192x10000.rank)
  reducesTo_S8192x10000_S_d0_1 : S8192x10000.ReducesTo [0, 1] S_
  h_S_ : 0 < S_.numel

variable [Facts₀]

class Facts : Prop extends Facts₀ where

variable [Facts]
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BlockRead.lean ====
/-
  The blocks the kernel sees at grid point `t`, read off the argument arrays.

  Point `t` (of 64, numbered core-major: `t = 32·core + tile`) stages rows `128·t … 128·t + 127` of the input matrix,
  all 10000 columns, and the same rows of the targets seen as an 8192 × 1 column — the column being the host's reshape
  of the 8192 targets, so that its entry `(p, 0)` is target `p`.  The two outputs' blocks at `t` are entry
  `t / 32` of their 2 × 1 × 1 arrays: one entry per core.
-/
import proofs.«164756_j2078764171740_2_alg».proof.Proof.Gen.KernelIdeal.Frame
import proofs.«164756_j2078764171740_2_alg».proof.Proof.LibColumn
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F]
variable (m : (ℓ : Loc nD τ sig) → Buf (Elt F) ℓ)

/-- Where each window's block sits at point `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- The input block at `t`: its entry `y` is the argument's entry `i` when `i` is row `128·t + y₀`, column `y₁`. -/
theorem input_block (c : Dev nD) (t : Fin cfg0.N) (y : S128x10000.Idx) (i : S8192x10000.Idx)
    (h0 : (i 0).val = t.val * 128 + (y 0).val) (h1 : (i 1).val = (y 1).val) :
    iblk m c 0 t y = m ((c : Thread nD τ).loc main_arg0) i := by
  obtain ⟨f0, f1, -⟩ := idx_facts t
  refine Eq.trans ?_ (congrFun (V_main_arg0 m c) i)
  unfold iblk
  rw [View.read_apply]
  show V m c main_arg0 (((cfg0.win 0).blk t).view.emb y) = V m c main_arg0 i
  refine congrArg _ (funext fun a => Fin.ext ?_)
  match a with
  | ⟨0, _⟩ => show win0_0.index t 0 * 128 + 1 * (y 0).val = (i 0).val; rw [f0, h0]; omega
  | ⟨1, _⟩ => show win0_0.index t 1 * 10000 + 1 * (y 1).val = (i 1).val; rw [f1, h1]; omega

/-- The targets as the region finds them: the 8192 words seen as a column. -/
theorem targets_column (c : Dev nD) :
    (V m c main_v0 : S8192x1.Idx → BitVec 32)
      = shapeCast S8192x1 (m ((c : Thread nD τ).loc main_arg1)) shapeCasts_S8192_S8192x1 := by
  show StableHlo.after hostOps0 (fun b => m (c, b)) (Proc.devRef .tc main_v0) = _
  after_results
  rfl

/-- The targets block at `t`: its entry `(y₀, 0)` is target `128·t + y₀`. -/
theorem targets_block (c : Dev nD) (t : Fin cfg0.N) (r : Fin 128) (p : Fin 8192) (hp : p.val = t.val * 128 + r.val) :
    iblk m c 1 t (ix2 r (0 : Fin 1)) = m ((c : Thread nD τ).loc main_arg1) (ix1 p) := by
  obtain ⟨-, -, f0, f1, -⟩ := idx_facts t
  refine Eq.trans ?_ (Cert.LibColumn.shapeCast_a_a1_apply (m ((c : Thread nD τ).loc main_arg1)) shapeCasts_S8192_S8192x1 p (0 : Fin 1))
  refine Eq.trans ?_ (congrFun (targets_column m c) (ix2 p (0 : Fin 1)))
  unfold iblk
  rw [View.read_apply]
  show V m c main_v0 (((cfg0.win 1).blk t).view.emb (ix2 r (0 : Fin 1))) = V m c main_v0 (ix2 p (0 : Fin 1))
  refine congrArg _ (funext fun a => Fin.ext ?_)
  match a with
  | ⟨0, _⟩ => show win0_1.index t 0 * 128 + 1 * r.val = p.val; rw [f0, hp]; omega
  | ⟨1, _⟩ => show win0_1.index t 1 * 1 + 1 * 0 = 0; rw [f1]

end Cert.KernelIdeal.Blocks

end
-- ==== Proof.CaseValues.lean ====
/-
  What one grid point leaves in the two accumulators, as values.

  At the first point of a core's run (case A) the body stores zero into both accumulators, reads that back, and
  adds the block's scaled sums: it leaves `0 + s`.  At every other point (case B) it adds them to what the point
  before left: `acc + s`.  Here `s` is the block's scaled sum as the body's arithmetic gives it from the two
  input blocks; the next module reads that arithmetic.
-/
import proofs.«164756_j2078764171740_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first point leaves, in the first accumulator, zero plus the block's first scaled sum. -/
theorem first_A (c : Dev nD) (i : grid0.Coords) (a2 : Memref sig .tc .vmem S128x10000 .f32) (h2 : a2.IsWhole)
    (a3 : Memref sig .tc .vmem S128x1 .i32) (h3 : a3.IsWhole) (a4 : Memref sig .tc .vmem S1x1x1 .f32) (h4 : a4.IsWhole)
    (a5 : Memref sig .tc .vmem S1x1x1 .f32) (h5 : a5.IsWhole) (hc : cond0_0 i)
    (x0 : Vec F S128x10000 .f32) (x1 : Vec F S128x1 .i32) :
    out0_A_2 c i a2 h2 a3 h3 a4 h4 a5 h5 hc x0 x1 = k0_pay1 (k0_pay7 x1 x0) (k0_pay9 (k0_pay3 (F := F))) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S128x1) hz2,
    View.ld_unit_zero (S := S128x10000) hz2]

/-- A first point leaves, in the second accumulator, zero plus the block's second scaled sum. -/
theorem second_A (c : Dev nD) (i : grid0.Coords) (a2 : Memref sig .tc .vmem S128x10000 .f32) (h2 : a2.IsWhole)
    (a3 : Memref sig .tc .vmem S128x1 .i32) (h3 : a3.IsWhole) (a4 : Memref sig .tc .vmem S1x1x1 .f32) (h4 : a4.IsWhole)
    (a5 : Memref sig .tc .vmem S1x1x1 .f32) (h5 : a5.IsWhole) (hc : cond0_0 i)
    (x0 : Vec F S128x10000 .f32) (x1 : Vec F S128x1 .i32) :
    out0_A_3 c i a2 h2 a3 h3 a4 h4 a5 h5 hc x0 x1 = k0_pay2 (k0_pay8 x1 x0) (k0_pay4 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S128x1) hz2,
    View.ld_unit_zero (S := S128x10000) hz2]

/-- A later point leaves, in the first accumulator, what it held plus the block's first scaled sum. -/
theorem first_B (c : Dev nD) (i : grid0.Coords) (a2 : Memref sig .tc .vmem S128x10000 .f32) (h2 : a2.IsWhole)
    (a3 : Memref sig .tc .vmem S128x1 .i32) (h3 : a3.IsWhole) (a4 : Memref sig .tc .vmem S1x1x1 .f32) (h4 : a4.IsWhole)
    (a5 : Memref sig .tc .vmem S1x1x1 .f32) (h5 : a5.IsWhole) (hc : ¬cond0_0 i)
    (x0 : Vec F S128x10000 .f32) (x1 : Vec F S128x1 .i32) (xo2 xo3 : Vec F S1x1x1 .f32) :
    out0_B_2 c i a2 h2 a3 h3 a4 h4 a5 h5 hc x0 x1 xo2 xo3 = k0_pay1 (k0_pay7 x1 x0) (k0_pay9 xo2) := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero (S := S1x1x1) hz3]
  simp only [View.readAt_eq_ld, h2.read_unread, h3.read_unread, h4.read_unread, View.ld_unit_zero (S := S128x1) hz2,
    View.ld_unit_zero (S := S128x10000) hz2, View.ld_unit_zero (S := S1x1x1) hz3]

/-- A later point leaves, in the second accumulator, what it held plus the block's second scaled sum. -/
theorem second_B (c : Dev nD) (i : grid0.Coords) (a2 : Memref sig .tc .vmem S128x10000 .f32) (h2 : a2.IsWhole)
    (a3 : Memref sig .tc .vmem S128x1 .i32) (h3 : a3.IsWhole) (a4 : Memref sig .tc .vmem S1x1x1 .f32) (h4 : a4.IsWhole)
    (a5 : Memref sig .tc .vmem S1x1x1 .f32) (h5 : a5.IsWhole) (hc : ¬cond0_0 i)
    (x0 : Vec F S128x10000 .f32) (x1 : Vec F S128x1 .i32) (xo2 xo3 : Vec F S1x1x1 .f32) :
    out0_B_3 c i a2 h2 a3 h3 a4 h4 a5 h5 hc x0 x1 xo2 xo3 = k0_pay2 (k0_pay8 x1 x0) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero (S := S1x1x1) hz3]
  simp only [View.readAt_eq_ld, h2.read_unread, h3.read_unread, h5.read_unread, View.ld_unit_zero (S := S128x1) hz2,
    View.ld_unit_zero (S := S128x10000) hz2, View.ld_unit_zero (S := S1x1x1) hz3]

end Cert.KernelIdeal.Cases

end
-- ==== Proof.LibResetChain.lean ====
/-
  Finite sums of extended reals, as a grid accumulator meets them.

  * A range of `a * b` consecutive naturals is `a` runs of `b`: the sum over it is the double sum.
  * A sum of NONNEGATIVE extended reals times a constant is the sum of the products.  (On the extended reals
    `(x + y) * k = x * k + y * k` can fail when `x` and `y` are infinities of opposite signs; between nonnegative
    terms there is no such pair.)
  * An accumulator that restarts from `z` at every `P`-th point and otherwise adds the point's term to what the
    point before left holds, after point `n`, `z` plus the terms since the last restart; at the last point of
    run `c` that is `z` plus the run's `P` terms.
-/
import Mathlib.Data.EReal.Operations
import Mathlib.Algebra.BigOperators.Intervals
import Mathlib.Algebra.Order.BigOperators.Group.Finset

namespace Cert.LibResetChain

open Finset

/-- The sum over `a * b` consecutive naturals is the sum over `a` runs of `b`. -/
theorem sum_range_mul {M : Type*} [AddCommMonoid M] (f : ℕ → M) (a b : ℕ) :
    ∑ i ∈ range (a * b), f i = ∑ i ∈ range a, ∑ j ∈ range b, f (i * b + j) := by
  induction a with
  | zero => simp
  | succ a ih => rw [Nat.succ_mul, Finset.sum_range_add, ih, Finset.sum_range_succ]

/-- A finite sum of nonnegative extended reals times a constant is the sum of the products. -/
theorem sum_mul_of_nonneg {ι : Type*} (s : Finset ι) (g : ι → EReal) (k : EReal) (hg : ∀ i ∈ s, 0 ≤ g i) :
    (∑ i ∈ s, g i) * k = ∑ i ∈ s, g i * k := by
  classical
  induction s using Finset.induction_on with
  | empty => simp
  | insert a s ha ih =>
    rw [Finset.sum_insert ha, Finset.sum_insert ha,
      EReal.right_distrib_of_nonneg (hg a (Finset.mem_insert_self a s))
        (Finset.sum_nonneg fun i hi => hg i (Finset.mem_insert_of_mem hi)),
      ih fun i hi => hg i (Finset.mem_insert_of_mem hi)]

/-- The point before a point that is not first in its run is in the same run, one place earlier. -/
theorem pred_div_mod (P : ℕ) (hP : 0 < P) (n q r : ℕ) (h : P * q + r = n + 1) (hlt : r < P) (hne : r ≠ 0) :
    n / P = q ∧ n % P = r - 1 := by
  have hn' : n = P * q + (r - 1) := by omega
  constructor
  · rw [hn', Nat.mul_add_div hP, Nat.div_eq_of_lt (by omega), Nat.add_zero]
  · rw [hn', Nat.mul_add_mod, Nat.mod_eq_of_lt (by omega)]

/-- The restarting accumulator after point `n`: `z` plus the terms of the points since the last restart. -/
theorem chain_closed {M : Type*} [AddCommMonoid M] (P : ℕ) (hP : 0 < P) (acc T : ℕ → M) (z : M) (N : ℕ)
    (h0 : ∀ n, n < N → n % P = 0 → acc n = z + T n)
    (hs : ∀ n, n < N → n % P ≠ 0 → acc n = acc (n - 1) + T n) :
    ∀ n, n < N → acc n = z + ∑ j ∈ range (n % P + 1), T (P * (n / P) + j) := by
  intro n
  induction n with
  | zero =>
    intro hn
    rw [h0 0 hn (Nat.zero_mod P), Nat.zero_mod, Nat.zero_div, Finset.sum_range_one, Nat.mul_zero]
  | succ n ih =>
    intro hn
    have hdm : P * ((n + 1) / P) + (n + 1) % P = n + 1 := Nat.div_add_mod (n + 1) P
    by_cases hm : (n + 1) % P = 0
    · rw [h0 (n + 1) hn hm, hm, Finset.sum_range_one]
      rw [hm, Nat.add_zero] at hdm
      rw [Nat.add_zero, hdm]
    · obtain ⟨hq, hrm⟩ := pred_div_mod P hP n _ _ hdm (Nat.mod_lt _ hP) hm
      have hr : (n + 1) % P - 1 + 1 = (n + 1) % P := Nat.sub_add_cancel (Nat.pos_of_ne_zero hm)
      rw [hs (n + 1) hn hm, Nat.add_sub_cancel, ih (Nat.lt_of_succ_lt hn), hq, hrm, hr,
        Finset.sum_range_succ _ ((n + 1) % P), hdm, add_assoc]

/-- At the last point of run `c` the accumulator holds `z` plus that run's `P` terms. -/
theorem chain_run_end {M : Type*} [AddCommMonoid M] (P : ℕ) (hP : 0 < P) (acc T : ℕ → M) (z : M) (N : ℕ)
    (h0 : ∀ n, n < N → n % P = 0 → acc n = z + T n)
    (hs : ∀ n, n < N → n % P ≠ 0 → acc n = acc (n - 1) + T n) (c : ℕ) (hc : P * c + (P - 1) < N) :
    acc (P * c + (P - 1)) = z + ∑ j ∈ range P, T (P * c + j) := by
  have h1 : (P * c + (P - 1)) % P = P - 1 := by rw [Nat.mul_add_mod, Nat.mod_eq_of_lt (by omega)]
  have h2 : (P * c + (P - 1)) / P = c := by rw [Nat.mul_add_div hP, Nat.div_eq_of_lt (by omega), Nat.add_zero]
  rw [chain_closed P hP acc T z N h0 hs _ hc, h1, h2, Nat.sub_add_cancel hP]

end Cert.LibResetChain
-- ==== Proof.HingeSpec.lean ====
/-
  The margin loss both programs compute, stated once over the extended reals.

  For an input matrix `X` (8192 rows, 10000 columns) and one target column per row, entry `(p, q)` of the loss is
  `max (s * (X p q - μ)) 0` with `s = -1, μ = 50` where `q` is row `p`'s target and `s = 1, μ = -25` elsewhere;
  the second loss is the same with the target column's entries put to `0`.  Each result is the sum of all
  entries times `1 / 8192`.

  Every entry is at least `0`, which is what lets the factor `1 / 8192` move across the sums: one program scales
  the total, the other scales each block of 128 rows and adds the scaled blocks up in two runs of 32.
-/
import Idealize.ShloMosaic.PureOps.Ideal
import Idealize.ShloMosaic.PureOps.Ideal.Laws
import Idealize.ShloMosaic.Lib.ValueIdx
import proofs.«164756_j2078764171740_2_alg».proof.Proof.LibResetChain

noncomputable section

namespace Cert.HingeSpec

open Idealize.ShloMosaic Idealize.ShloMosaic.ValueIdx Finset Cert.LibResetChain

/-- The extended real a 32-bit float word denotes. -/
abbrev w (b : BitVec 32) : EReal := Ideal.ofBits .f32 b

/-! ## The words that have to be read -/

theorem w_zero : w 0x00000000#32 = 0 := Ideal.ofBits_zero_f32

/-- The block factor `2⁻¹³` is `1 / 8192`. -/
theorem w_scale : w 0x39000000#32 = ((1 / 8192 : ℝ) : EReal) := by
  simp [Ideal.ofBits, Ideal.ieee, -EReal.coe_mul]; norm_num

theorem w_one : w 0x3F800000#32 = ((1 : ℝ) : EReal) := by
  simp [Ideal.ofBits, Ideal.ieee, -EReal.coe_mul]; norm_num

theorem w_rows : w 0x46000000#32 = ((8192 : ℝ) : EReal) := by
  simp [Ideal.ofBits, Ideal.ieee, -EReal.coe_mul]; norm_num

/-- The quotient `1 / 8192` taken on the extended reals is the same real. -/
theorem quotient_scale : Ideal.div (w 0x3F800000#32) (w 0x46000000#32) = ((1 / 8192 : ℝ) : EReal) := by
  rw [w_one, w_rows, Ideal.div_coe (by norm_num : (8192 : ℝ) ≠ 0), ← EReal.coe_mul, one_mul]

/-! ## One entry -/

/-- The clamped margin of one entry: `b` says whether the entry's column is its row's target. -/
def hinge (b : BitVec 1) (x : EReal) : EReal :=
  max (Scalar.select b (w 0xBF800000#32) (w 0x3F800000#32) * (x - Scalar.select b (w 0x42480000#32) (w 0xC1C80000#32)))
    (w 0x00000000#32)

/-- The same with the target column's entry put to zero. -/
def hingeOff (b : BitVec 1) (x : EReal) : EReal := Scalar.select b (w 0x00000000#32) (hinge b x)

theorem hinge_nonneg (b : BitVec 1) (x : EReal) : 0 ≤ hinge b x := by
  unfold hinge; rw [w_zero]; exact le_max_right _ _

theorem hingeOff_nonneg (b : BitVec 1) (x : EReal) : 0 ≤ hingeOff b x := by
  unfold hingeOff Scalar.select
  split
  · rw [w_zero]
  · exact hinge_nonneg b x

/-- Whether two words are equal does not depend on their order. -/
theorem cmpi_eq_comm {n : ℕ} (x y : BitVec n) : IntOp.cmpi .eq x y = IntOp.cmpi .eq y x := by
  show BitVec.ofBool (x == y) = BitVec.ofBool (y == x)
  rw [Bool.beq_comm]

/-! ## The matrix of entries, and the mean -/

/-- Entry `(p, q)` of the loss `h` by natural coordinates (`0` outside the matrix, so that sums over ranges of
    naturals can be cut and joined freely). -/
def entry (h : BitVec 1 → EReal → EReal) (X : (⟨2, ![8192, 10000]⟩ : Shape).Idx → EReal)
    (Tg : (⟨1, ![8192]⟩ : Shape).Idx → BitVec 32) (p q : ℕ) : EReal :=
  if hpq : p < 8192 ∧ q < 10000 then
    h (IntOp.cmpi .eq (Tg (ix1 ⟨p, hpq.1⟩)) (BitVec.ofNat 32 q)) (X (ix2 ⟨p, hpq.1⟩ ⟨q, hpq.2⟩))
  else 0

theorem entry_fin (h : BitVec 1 → EReal → EReal) (X : (⟨2, ![8192, 10000]⟩ : Shape).Idx → EReal)
    (Tg : (⟨1, ![8192]⟩ : Shape).Idx → BitVec 32) (p : Fin 8192) (q : Fin 10000) :
    entry h X Tg p.val q.val = h (IntOp.cmpi .eq (Tg (ix1 p)) (BitVec.ofNat 32 q.val)) (X (ix2 p q)) :=
  dif_pos ⟨p.isLt, q.isLt⟩

theorem entry_nonneg (h : BitVec 1 → EReal → EReal) (hh : ∀ b x, 0 ≤ h b x) (X : (⟨2, ![8192, 10000]⟩ : Shape).Idx → EReal)
    (Tg : (⟨1, ![8192]⟩ : Shape).Idx → BitVec 32) (p q : ℕ) : 0 ≤ entry h X Tg p q := by
  unfold entry
  split
  · exact hh _ _
  · exact le_refl _

/-- The result: the sum of all entries times `1 / 8192`. -/
def mean (h : BitVec 1 → EReal → EReal) (X : (⟨2, ![8192, 10000]⟩ : Shape).Idx → EReal)
    (Tg : (⟨1, ![8192]⟩ : Shape).Idx → BitVec 32) : EReal :=
  (∑ p ∈ range 8192, ∑ q ∈ range 10000, entry h X Tg p q) * ((1 / 8192 : ℝ) : EReal)

/-- The sum of block `n`: 128 consecutive rows. -/
def blockSum (g : ℕ → ℕ → EReal) (n : ℕ) : EReal := ∑ r ∈ range 128, ∑ q ∈ range 10000, g (n * 128 + r) q

/-! ## The two arrangements of the sum -/

/-- Scaling each block of 128 rows and adding the scaled blocks in two runs of 32 gives the scaled total,
    when no entry is negative. -/
theorem blocks_eq_total (g : ℕ → ℕ → EReal) (hg : ∀ p q, 0 ≤ g p q) (k : EReal) :
    ∑ c ∈ range 2, ∑ j ∈ range 32, blockSum g (32 * c + j) * k
      = (∑ p ∈ range 8192, ∑ q ∈ range 10000, g p q) * k := by
  have hb : ∀ n, 0 ≤ blockSum g n := fun n =>
    Finset.sum_nonneg fun r _ => Finset.sum_nonneg fun q _ => hg _ _
  have e1 : ∑ p ∈ range 8192, ∑ q ∈ range 10000, g p q = ∑ n ∈ range 64, blockSum g n :=
    sum_range_mul (fun p => ∑ q ∈ range 10000, g p q) 64 128
  have e2 : ∑ n ∈ range 64, blockSum g n = ∑ c ∈ range 2, ∑ j ∈ range 32, blockSum g (c * 32 + j) :=
    sum_range_mul (blockSum g) 2 32
  rw [e1, e2, sum_mul_of_nonneg _ _ _ fun c _ => Finset.sum_nonneg fun j _ => hb _]
  refine Finset.sum_congr rfl fun c _ => ?_
  rw [sum_mul_of_nonneg _ _ _ fun j _ => hb _]
  refine Finset.sum_congr rfl fun j _ => ?_
  rw [Nat.mul_comm c 32]

end Cert.HingeSpec

end
-- ==== Proof.TileValue.lean ====
/-
  What the kernel computes from one block, read at the extended reals.

  A block is 128 rows of the input (128 × 10000) with those rows' 128 targets as a column.  The body forms, entry by
  entry, the clamped margin (`hinge`) and the same with the target column zeroed (`hingeOff`), sums each row along its
  lanes, sums the 128 row sums, and scales by `2⁻¹³`: the block's contribution is the sum of its entries times that
  factor.
-/
import proofs.«164756_j2078764171740_2_alg».proof.Proof.Gen.KernelIdeal.Skeleton
import proofs.«164756_j2078764171740_2_alg».proof.Proof.HingeSpec
import proofs.«164756_j2078764171740_2_alg».proof.Proof.LibColumn
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.HingeSpec Finset

variable (x1 : Vec Ideal S128x1 .i32) (x0 : Vec Ideal S128x10000 .f32)

/-- Whether column `q` is row `r`'s target: the row's target word against the column's number. -/
theorem target_bit (r : Fin 128) (q : Fin 10000) :
    k0_pay5 (F := Ideal) x1 (ix2 r q) = IntOp.cmpi .eq (x1 (ix2 r (0 : Fin 1))) (BitVec.ofNat 32 q.val) := by
  unfold k0_pay5
  have e1 : broadcastTo S128x10000 (shapeCast S128x1 (shapeCast S128x1 x1 shapeCasts_S128x1_S128x1) shapeCasts_S128x1_S128x1)
      broadcasts_S128x1_S128x10000 (ix2 r q) = x1 (ix2 r (0 : Fin 1)) := by
    rw [shapeCast_self, shapeCast_self]
    exact Cert.LibColumn.broadcastTo_a1_ab_apply x1 _ r q
  have e2 : iota .tc S128x10000 32 [1] iota_S128x10000_d1_w32 (ix2 r q) = BitVec.ofNat 32 q.val :=
    iota_single_apply .tc S128x10000 32 1 _ (ix2 r q)
  exact congrArg₂ (IntOp.cmpi .eq) e1 e2

/-- Entry `(r, q)` of the first loss. -/
theorem loss_entry (r : Fin 128) (q : Fin 10000) :
    k0_pay6 (F := Ideal) x1 x0 (ix2 r q)
      = hinge (IntOp.cmpi .eq (x1 (ix2 r (0 : Fin 1))) (BitVec.ofNat 32 q.val)) (x0 (ix2 r q)) := by
  rw [← target_bit x1 r q]
  rfl

/-- A row index with a lane inserted is the entry's index. -/
theorem lift_lane (h : S128x10000.Reduces [1] S128) (r : Fin 128) (q : Fin 10000) : h.lift (ix1 r) q = ix2 r q := by
  funext a; match a with | ⟨0, _⟩ => rfl | ⟨1, _⟩ => rfl

/-- The one index of the column's total with a row inserted is that row of the column. -/
theorem lift_row (h : S128x1.Reduces [0] S1) (r : Fin 128) : h.lift (ix1 (0 : Fin 1)) r = ix2 r (0 : Fin 1) := by
  funext a; match a with | ⟨0, _⟩ => rfl | ⟨1, _⟩ => rfl

/-- Summing a 128 × 10000 block along its lanes, then the 128 row sums, and viewing the total as a 1 × 1 array:
    the double sum of the block. -/
theorem rows_then_lanes (v : FVec Ideal S128x10000 .f32) (hz : (0x00000000#32 : BitVec 32) = 0x00000000#32) :
    shapeCast S1x1 (multiReduction .add [0] S1
        (shapeCast S128x1 (multiReduction .add [1] S128 v 0x00000000#32 reduces_S128x10000_S128 (.inl rfl) hz) shapeCasts_S128_S128x1)
        0x00000000#32 reduces_S128x1_S1 (.inl rfl) hz) shapeCasts_S1_S1x1 (ix2 (0 : Fin 1) (0 : Fin 1))
      = ∑ r : Fin 128, ∑ q : Fin 10000, v (ix2 r q) := by
  refine (Cert.LibColumn.shapeCast_a_a1_apply _ shapeCasts_S1_S1x1 (0 : Fin 1) (0 : Fin 1)).trans ?_
  refine (Ideal.multiReduction_add_single _ 0x00000000#32 reduces_S128x1_S1 (.inl rfl) hz (ix1 (0 : Fin 1))).trans ?_
  refine Finset.sum_congr rfl fun r _ => ?_
  refine (congrArg _ (lift_row reduces_S128x1_S1 r)).trans ?_
  refine (Cert.LibColumn.shapeCast_a_a1_apply _ shapeCasts_S128_S128x1 r (0 : Fin 1)).trans ?_
  refine (Ideal.multiReduction_add_single v 0x00000000#32 reduces_S128x10000_S128 (.inl rfl) hz (ix1 r)).trans ?_
  exact Finset.sum_congr rfl fun q _ => congrArg v (lift_lane reduces_S128x10000_S128 r q)

/-- A 1 × 1 array has one index. -/
theorem one_index (i : S1x1.Idx) : i = ix2 (0 : Fin 1) (0 : Fin 1) := by
  refine (eq_ix2 i).trans ?_
  have h0 : i 0 = (0 : Fin 1) := Fin.ext (by have := idx2_lt0 (n0 := 1) (n1 := 1) i; show (i 0).val = 0; omega)
  have h1 : i 1 = (0 : Fin 1) := Fin.ext (by have := idx2_lt1 (n0 := 1) (n1 := 1) i; show (i 1).val = 0; omega)
  rw [h0, h1]
  rfl

/-- The block's contribution to the first result: the sum of its entries times `2⁻¹³`. -/
theorem scaled_block (i : S1x1.Idx) :
    k0_pay7 (F := Ideal) x1 x0 i
      = (∑ r : Fin 128, ∑ q : Fin 10000,
          hinge (IntOp.cmpi .eq (x1 (ix2 r (0 : Fin 1))) (BitVec.ofNat 32 q.val)) (x0 (ix2 r q))) * w 0x39000000#32 := by
  rw [one_index i]
  unfold k0_pay7
  refine congrArg (· * w 0x39000000#32) ?_
  refine (rows_then_lanes (k0_pay6 x1 x0) rfl).trans ?_
  exact Finset.sum_congr rfl fun r _ => Finset.sum_congr rfl fun q _ => loss_entry x1 x0 r q

/-- Entry `(r, q)` of the second loss: the first with the target column put to zero. -/
theorem lossOff_entry (r : Fin 128) (q : Fin 10000) :
    select (k0_pay5 (F := Ideal) x1) (broadcast S128x10000 (Scalar.ofBits (F := Ideal) .f32 0x00000000#32)) (k0_pay6 x1 x0) (ix2 r q)
      = hingeOff (IntOp.cmpi .eq (x1 (ix2 r (0 : Fin 1))) (BitVec.ofNat 32 q.val)) (x0 (ix2 r q)) := by
  show Scalar.select (k0_pay5 x1 (ix2 r q)) (w 0x00000000#32) (k0_pay6 x1 x0 (ix2 r q)) = _
  rw [target_bit, loss_entry]
  rfl

/-- The block's contribution to the second result. -/
theorem scaled_blockOff (i : S1x1.Idx) :
    k0_pay8 (F := Ideal) x1 x0 i
      = (∑ r : Fin 128, ∑ q : Fin 10000,
          hingeOff (IntOp.cmpi .eq (x1 (ix2 r (0 : Fin 1))) (BitVec.ofNat 32 q.val)) (x0 (ix2 r q))) * w 0x39000000#32 := by
  rw [one_index i]
  unfold k0_pay8
  refine congrArg (· * w 0x39000000#32) ?_
  refine (rows_then_lanes _ rfl).trans ?_
  exact Finset.sum_congr rfl fun r _ => Finset.sum_congr rfl fun q _ => lossOff_entry x1 x0 r q

end Cert.KernelIdeal.Tile

end
-- ==== Proof.Accumulate.lean ====
/-
  The two accumulators, point by point, at the extended reals.

  After point `t` each accumulator holds `0` plus the scaled sums of the blocks since its core's first point: at a
  core's first point (`t` a multiple of 32) it is `0 + sₜ`, later `acc + sₜ`, where `sₜ` is the sum of block `t`'s
  entries times `2⁻¹³`.  At the last point of core `k`'s run, `t = 32·k + 31`, it holds `0 + Σ_{j < 32} s_{32k + j}`.
-/
import proofs.«164756_j2078764171740_2_alg».proof.Proof.BlockRead
import proofs.«164756_j2078764171740_2_alg».proof.Proof.CaseValues
import proofs.«164756_j2078764171740_2_alg».proof.Proof.TileValue
import proofs.«164756_j2078764171740_2_alg».proof.Proof.HingeSpec
import proofs.«164756_j2078764171740_2_alg».proof.Proof.LibResetChain
import Idealize.ShloMosaic.Lib.Pipeline.Value

noncomputable section

namespace Cert.KernelIdeal.Acc

open Idealize.ShloMosaic Idealize.ShloMosaic.TcCoe Idealize.SL.Sem Idealize.ShloMosaic.ValueIdx
open Cert.KernelIdeal Cert.KernelIdeal.Gen Cert.HingeSpec Finset

variable (m : (ℓ : Loc nD τ sig) → Buf (Elt Ideal) ℓ)

/-- The input matrix and the targets on core `c`. -/
abbrev X (c : Dev nD) : (⟨2, ![8192, 10000]⟩ : Shape).Idx → EReal := m ((c : Thread nD τ).loc main_arg0)
abbrev Tg (c : Dev nD) : (⟨1, ![8192]⟩ : Shape).Idx → BitVec 32 := m ((c : Thread nD τ).loc main_arg1)

/-- The two blocks the body sees at point `t`. -/
abbrev inBlk (c : Dev nD) (t : Fin cfg0.N) : Vec Ideal S128x10000 .f32 := iblk m c 0 t
abbrev tgBlk (c : Dev nD) (t : Fin cfg0.N) : Vec Ideal S128x1 .i32 := iblk m c 1 t

/-! ## The small payloads -/

theorem pay1_apply (v27 : FVec Ideal S1x1 .f32) (v35 : FVec Ideal S1x1x1 .f32) (j : S1x1x1.Idx) :
    k0_pay1 (F := Ideal) v27 v35 j = v35 j + v27 (fun a => j a.succ) := by
  unfold k0_pay1
  exact congrArg (v35 j + ·) (shapeCast_addUnit_apply ![1, 1] v27 _ j)

theorem pay2_apply (v33 : FVec Ideal S1x1 .f32) (v39 : Vec Ideal S1x1x1 .f32) (j : S1x1x1.Idx) :
    k0_pay2 (F := Ideal) v33 v39 j = v39 j + v33 (fun a => j a.succ) := by
  unfold k0_pay2
  show shapeCast S1x1x1 v39 shapeCasts_S1x1x1_S1x1x1 j + shapeCast S1x1x1 v33 shapeCasts_S1x1_S1x1x1 j = _
  rw [shapeCast_self]
  exact congrArg (v39 j + ·) (shapeCast_addUnit_apply ![1, 1] v33 _ j)

theorem pay9_eq (v : Vec Ideal S1x1x1 .f32) : k0_pay9 (F := Ideal) v = v := by
  unfold k0_pay9
  exact shapeCast_self _ _

theorem pay3_apply (j : S1x1x1.Idx) : k0_pay3 (F := Ideal) j = 0 := Ideal.ofBits_zero_f32
theorem pay4_apply (j : S1x1x1.Idx) : k0_pay4 (F := Ideal) j = 0 := Ideal.ofBits_zero_f32

/-! ## A block's entries are the loss's entries -/

/-- The entries of block `t`, summed, are rows `128·t … 128·t + 127` of the loss. -/
theorem block_entries (h : BitVec 1 → EReal → EReal) (c : Dev nD) (t : Fin cfg0.N) :
    ∑ r : Fin 128, ∑ q : Fin 10000,
        h (IntOp.cmpi .eq (tgBlk m c t (ix2 r (0 : Fin 1))) (BitVec.ofNat 32 q.val)) (inBlk m c t (ix2 r q))
      = blockSum (entry h (X m c) (Tg m c)) t.val := by
  have hN : t.val < 64 := lt_of_lt_of_eq t.isLt N_0
  unfold blockSum
  rw [Finset.sum_range]
  refine Finset.sum_congr rfl fun r _ => ?_
  rw [Finset.sum_range]
  refine Finset.sum_congr rfl fun q _ => ?_
  have hp : t.val * 128 + r.val < 8192 := by omega
  refine Eq.trans ?_ (entry_fin h (X m c) (Tg m c) ⟨t.val * 128 + r.val, hp⟩ q).symm
  exact congrArg₂ h
    (congrArg (IntOp.cmpi .eq · (BitVec.ofNat 32 q.val)) (Blocks.targets_block m c t r ⟨t.val * 128 + r.val, hp⟩ rfl))
    (Blocks.input_block m c t (ix2 r q) (ix2 ⟨t.val * 128 + r.val, hp⟩ q) rfl rfl)

/-- Block `t`'s contribution to the first result. -/
theorem contribution (c : Dev nD) (t : Fin cfg0.N) (i : S1x1.Idx) :
    k0_pay7 (F := Ideal) (tgBlk m c t) (inBlk m c t) i
      = blockSum (entry hinge (X m c) (Tg m c)) t.val * w 0x39000000#32 :=
  (Tile.scaled_block (tgBlk m c t) (inBlk m c t) i).trans (congrArg (· * w 0x39000000#32) (block_entries m hinge c t))

/-- Block `t`'s contribution to the second result. -/
theorem contributionOff (c : Dev nD) (t : Fin cfg0.N) (i : S1x1.Idx) :
    k0_pay8 (F := Ideal) (tgBlk m c t) (inBlk m c t) i
      = blockSum (entry hingeOff (X m c) (Tg m c)) t.val * w 0x39000000#32 :=
  (Tile.scaled_blockOff (tgBlk m c t) (inBlk m c t) i).trans (congrArg (· * w 0x39000000#32) (block_entries m hingeOff c t))

/-! ## What the accumulators hold after each point -/

/-- At a core's first point: zero plus the block's scaled sums. -/
theorem outs_first (c : Dev nD) (t : Fin cfg0.N) (h0 : t.val % 32 = 0) :
    outsAt0 m c t.val t.isLt
      = (k0_pay1 (k0_pay7 (tgBlk m c t) (inBlk m c t)) (k0_pay9 (k0_pay3 (F := Ideal))),
         k0_pay2 (k0_pay8 (tgBlk m c t) (inBlk m c t)) (k0_pay4 (F := Ideal))) := by
  rw [outsAt0_A m c t h0]
  exact Prod.ext
    (Cases.first_A (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t))
    (Cases.second_A (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- At a later point: what the point before left plus the block's scaled sums. -/
theorem outs_next (c : Dev nD) (t : Fin cfg0.N) (h0 : ¬t.val % 32 = 0) :
    outsAt0 m c t.val t.isLt
      = (k0_pay1 (k0_pay7 (tgBlk m c t) (inBlk m c t)) (k0_pay9 (outsAt0 m c (t.val - 1) (Nat.lt_of_le_of_lt (Nat.sub_le _ _) t.isLt)).1),
         k0_pay2 (k0_pay8 (tgBlk m c t) (inBlk m c t)) (outsAt0 m c (t.val - 1) (Nat.lt_of_le_of_lt (Nat.sub_le _ _) t.isLt)).2) := by
  rw [outsAt0_B m c t h0]
  exact Prod.ext
    (Cases.first_B (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)
    (Cases.second_B (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)

/-- The one entry of the first accumulator after point `n` (`0` past the grid). -/
def accM (c : Dev nD) (n : ℕ) : EReal :=
  if h : n < cfg0.N then (outsAt0 m c n h).1 (ix3 (0 : Fin 1) (0 : Fin 1) (0 : Fin 1)) else 0

/-- The one entry of the second accumulator after point `n`. -/
def accI (c : Dev nD) (n : ℕ) : EReal :=
  if h : n < cfg0.N then (outsAt0 m c n h).2 (ix3 (0 : Fin 1) (0 : Fin 1) (0 : Fin 1)) else 0

theorem accM_first (c : Dev nD) (n : ℕ) (hn : n < 64) (h0 : n % 32 = 0) :
    accM m c n = 0 + blockSum (entry hinge (X m c) (Tg m c)) n * w 0x39000000#32 := by
  have hn' : n < cfg0.N := lt_of_lt_of_eq hn N_0.symm
  unfold accM
  rw [dif_pos hn']
  refine (congrFun (congrArg Prod.fst (outs_first m c ⟨n, hn'⟩ h0)) _).trans ?_
  dsimp only
  rw [pay1_apply, pay9_eq, pay3_apply]
  exact congrArg (0 + ·) (contribution m c ⟨n, hn'⟩ _)

theorem accI_first (c : Dev nD) (n : ℕ) (hn : n < 64) (h0 : n % 32 = 0) :
    accI m c n = 0 + blockSum (entry hingeOff (X m c) (Tg m c)) n * w 0x39000000#32 := by
  have hn' : n < cfg0.N := lt_of_lt_of_eq hn N_0.symm
  unfold accI
  rw [dif_pos hn']
  refine (congrFun (congrArg Prod.snd (outs_first m c ⟨n, hn'⟩ h0)) _).trans ?_
  dsimp only
  rw [pay2_apply, pay4_apply]
  exact congrArg (0 + ·) (contributionOff m c ⟨n, hn'⟩ _)

theorem accM_next (c : Dev nD) (n : ℕ) (hn : n < 64) (h0 : n % 32 ≠ 0) :
    accM m c n = accM m c (n - 1) + blockSum (entry hinge (X m c) (Tg m c)) n * w 0x39000000#32 := by
  have hn' : n < cfg0.N := lt_of_lt_of_eq hn N_0.symm
  have hp' : n - 1 < cfg0.N := Nat.lt_of_le_of_lt (Nat.sub_le _ _) hn'
  unfold accM
  rw [dif_pos hn', dif_pos hp']
  refine (congrFun (congrArg Prod.fst (outs_next m c ⟨n, hn'⟩ h0)) _).trans ?_
  dsimp only
  rw [pay1_apply, pay9_eq]
  exact congrArg (_ + ·) (contribution m c ⟨n, hn'⟩ _)

theorem accI_next (c : Dev nD) (n : ℕ) (hn : n < 64) (h0 : n % 32 ≠ 0) :
    accI m c n = accI m c (n - 1) + blockSum (entry hingeOff (X m c) (Tg m c)) n * w 0x39000000#32 := by
  have hn' : n < cfg0.N := lt_of_lt_of_eq hn N_0.symm
  have hp' : n - 1 < cfg0.N := Nat.lt_of_le_of_lt (Nat.sub_le _ _) hn'
  unfold accI
  rw [dif_pos hn', dif_pos hp']
  refine (congrFun (congrArg Prod.snd (outs_next m c ⟨n, hn'⟩ h0)) _).trans ?_
  dsimp only
  rw [pay2_apply]
  exact congrArg (_ + ·) (contributionOff m c ⟨n, hn'⟩ _)

/-! ## The end of a core's run -/

/-- After core `k`'s last point the first accumulator holds zero plus the 32 scaled block sums of its run. -/
theorem accM_run_end (c : Dev nD) (k : ℕ) (hk : k < 2) :
    accM m c (32 * k + 31)
      = 0 + ∑ j ∈ range 32, blockSum (entry hinge (X m c) (Tg m c)) (32 * k + j) * w 0x39000000#32 :=
  Cert.LibResetChain.chain_run_end 32 (by norm_num) (accM m c)
    (fun n => blockSum (entry hinge (X m c) (Tg m c)) n * w 0x39000000#32) 0 64
    (fun n hn h0 => accM_first m c n hn h0) (fun n hn h0 => accM_next m c n hn h0) k (by omega)

/-- After core `k`'s last point the second accumulator holds zero plus the 32 scaled block sums of its run. -/
theorem accI_run_end (c : Dev nD) (k : ℕ) (hk : k < 2) :
    accI m c (32 * k + 31)
      = 0 + ∑ j ∈ range 32, blockSum (entry hingeOff (X m c) (Tg m c)) (32 * k + j) * w 0x39000000#32 :=
  Cert.LibResetChain.chain_run_end 32 (by norm_num) (accI m c)
    (fun n => blockSum (entry hingeOff (X m c) (Tg m c)) n * w 0x39000000#32) 0 64
    (fun n hn h0 => accI_first m c n hn h0) (fun n hn h0 => accI_next m c n hn h0) k (by omega)

end Cert.KernelIdeal.Acc

end
-- ==== Proof.KernelResult.lean ====
/-
  The kernel's two results.

  Each output array has one entry per core: entry `k` is flushed once, after point `32·k + 31`, the last of core `k`'s
  run, and so holds that core's accumulator: zero plus the core's 32 scaled block sums.  After the region the host adds
  the two entries to zero.  Altogether each result is the scaled block sums of all 64 blocks added up, which — no entry
  of the loss being negative — is the sum of all entries times `1 / 8192`: the specification's `mean`.
-/
import proofs.«164756_j2078764171740_2_alg».proof.Proof.Accumulate
import Idealize.ShloMosaic.Lib.StableHlo.Run
import Idealize.ShloMosaic.PureOps.Ideal.Laws

noncomputable section

namespace Cert.KernelIdeal.Result

open Idealize.ShloMosaic Idealize.ShloMosaic.TcCoe Idealize.SL.Sem Idealize.ShloMosaic.ValueIdx
open Cert.KernelIdeal Cert.KernelIdeal.Gen Cert.HingeSpec Cert.KernelIdeal.Acc Finset
open Idealize.ShloMosaic.Pipeline (Dat)

variable (m : (ℓ : Loc nD τ sig) → Buf (Elt Ideal) ℓ) (ρ : Dev nD → PrngReg)

/-- A 1 × 1 × 1 block has one index. -/
theorem one_index3 (y : S1x1x1.Idx) : y = ix3 (0 : Fin 1) (0 : Fin 1) (0 : Fin 1) := by
  refine (eq_ix3 y).trans ?_
  have e0 : (y 0).val < 1 := (y 0).isLt
  have e1 : (y 1).val < 1 := (y 1).isLt
  have e2 : (y 2).val < 1 := (y 2).isLt
  have h0 : y 0 = (0 : Fin 1) := Fin.ext (by show (y 0).val = 0; omega)
  have h1 : y 1 = (0 : Fin 1) := Fin.ext (by show (y 1).val = 0; omega)
  have h2 : y 2 = (0 : Fin 1) := Fin.ext (by show (y 2).val = 0; omega)
  rw [h0, h1, h2]
  rfl

/-! ## The output arrays after the run -/

/-- The first output array: entry `k` is the first accumulator after core `k`'s last point. -/
def firstArr (c : Dev nD) : S2x1x1.Idx → EReal := fun i => accM m c (32 * (i 0).val + 31)
/-- The second output array. -/
def secondArr (c : Dev nD) : S2x1x1.Idx → EReal := fun i => accI m c (32 * (i 0).val + 31)

/-- What a flushing point writes back of the first output is its block of `firstArr`. -/
theorem flushed_first (c : Dev nD) (t : Fin cfg0.N) (hf : (cfg0.win 2).flush t = true) :
    (dats m 0 c).flushed 2 t = ((cfg0.win 2).blk t).view.read (Elt Ideal) (firstArr m c) := by
  have h31 : t.val % 32 = 31 := (flush0_2 t).mp hf
  obtain ⟨-, -, -, -, f0, -⟩ := Blocks.idx_facts t
  show (cfg0.win 2).cut (grid0.coords t) ((dats m 0 c).after 2 t) = _
  rw [after0_2]
  refine funext fun (y : S1x1x1.Idx) => ?_
  rw [View.read_apply]
  show (outsAt0 m c t.val t.isLt).1 y = firstArr m c (((cfg0.win 2).blk t).view.emb y)
  have hy : (y 0).val < 1 := (y 0).isLt
  have he : ((((cfg0.win 2).blk t).view.emb y) 0).val = t.val / 32 := by
    show win0_2.index t 0 * 1 + 1 * (y 0).val = t.val / 32
    rw [f0]; omega
  unfold firstArr
  rw [he, show 32 * (t.val / 32) + 31 = t.val by omega]
  unfold accM
  rw [dif_pos t.isLt]
  exact congrArg _ (one_index3 y)

theorem flushed_second (c : Dev nD) (t : Fin cfg0.N) (hf : (cfg0.win 3).flush t = true) :
    (dats m 0 c).flushed 3 t = ((cfg0.win 3).blk t).view.read (Elt Ideal) (secondArr m c) := by
  have h31 : t.val % 32 = 31 := (flush0_3 t).mp hf
  obtain ⟨-, -, -, -, -, -, -, f0, -⟩ := Blocks.idx_facts t
  show (cfg0.win 3).cut (grid0.coords t) ((dats m 0 c).after 3 t) = _
  rw [after0_3]
  refine funext fun (y : S1x1x1.Idx) => ?_
  rw [View.read_apply]
  show (outsAt0 m c t.val t.isLt).2 y = secondArr m c (((cfg0.win 3).blk t).view.emb y)
  have hy : (y 0).val < 1 := (y 0).isLt
  have he : ((((cfg0.win 3).blk t).view.emb y) 0).val = t.val / 32 := by
    show win0_3.index t 0 * 1 + 1 * (y 0).val = t.val / 32
    rw [f0]; omega
  unfold secondArr
  rw [he, show 32 * (t.val / 32) + 31 = t.val by omega]
  unfold accI
  rw [dif_pos t.isLt]
  exact congrArg _ (one_index3 y)

/-- Every entry of the first output is in the block of its core's last point. -/
theorem cover_first (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : 32 * (i 0).val + 31 < cfg0.N := lt_of_lt_of_eq (by omega) N_0.symm
  obtain ⟨-, -, -, -, f0, f1, f2, -⟩ := Blocks.idx_facts ⟨32 * (i 0).val + 31, hN⟩
  dsimp only at f0
  refine ⟨⟨32 * (i 0).val + 31, hN⟩, (flush0_2 _).mpr (by show (32 * (i 0).val + 31) % 32 = 31; omega), ?_⟩
  show i ∈ ((View.whole main_v1_0).slice (win0_2.rect ⟨32 * (i 0).val + 31, hN⟩)).set
  rw [View.set_slice_whole, Rect.mem_set_unit]
  intro a
  match a with
  | ⟨0, _⟩ =>
    show win0_2.index ⟨32 * (i 0).val + 31, hN⟩ 0 * 1 ≤ (i 0).val ∧ (i 0).val < win0_2.index ⟨32 * (i 0).val + 31, hN⟩ 0 * 1 + 1
    rw [f0]; omega
  | ⟨1, _⟩ =>
    show win0_2.index ⟨32 * (i 0).val + 31, hN⟩ 1 * 1 ≤ (i 1).val ∧ (i 1).val < win0_2.index ⟨32 * (i 0).val + 31, hN⟩ 1 * 1 + 1
    rw [f1]; omega
  | ⟨2, _⟩ =>
    show win0_2.index ⟨32 * (i 0).val + 31, hN⟩ 2 * 1 ≤ (i 2).val ∧ (i 2).val < win0_2.index ⟨32 * (i 0).val + 31, hN⟩ 2 * 1 + 1
    rw [f2]; omega

theorem cover_second (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hN : 32 * (i 0).val + 31 < cfg0.N := lt_of_lt_of_eq (by omega) N_0.symm
  obtain ⟨-, -, -, -, -, -, -, f0, f1, f2⟩ := Blocks.idx_facts ⟨32 * (i 0).val + 31, hN⟩
  dsimp only at f0
  refine ⟨⟨32 * (i 0).val + 31, hN⟩, (flush0_3 _).mpr (by show (32 * (i 0).val + 31) % 32 = 31; omega), ?_⟩
  show i ∈ ((View.whole main_v1_1).slice (win0_3.rect ⟨32 * (i 0).val + 31, hN⟩)).set
  rw [View.set_slice_whole, Rect.mem_set_unit]
  intro a
  match a with
  | ⟨0, _⟩ =>
    show win0_3.index ⟨32 * (i 0).val + 31, hN⟩ 0 * 1 ≤ (i 0).val ∧ (i 0).val < win0_3.index ⟨32 * (i 0).val + 31, hN⟩ 0 * 1 + 1
    rw [f0]; omega
  | ⟨1, _⟩ =>
    show win0_3.index ⟨32 * (i 0).val + 31, hN⟩ 1 * 1 ≤ (i 1).val ∧ (i 1).val < win0_3.index ⟨32 * (i 0).val + 31, hN⟩ 1 * 1 + 1
    rw [f1]; omega
  | ⟨2, _⟩ =>
    show win0_3.index ⟨32 * (i 0).val + 31, hN⟩ 2 * 1 ≤ (i 2).val ∧ (i 2).val < win0_3.index ⟨32 * (i 0).val + 31, hN⟩ 2 * 1 + 1
    rw [f2]; omega

/-- The first output array after the run. -/
theorem final_first (c : Dev nD) : (dats m 0 c).arrAt 2 cfg0.N = firstArr m c :=
  (dats m 0 c).arrAt_eq_of_cover 2 (firstArr m c) (flushed_first m c) cover_first

/-- The second output array after the run. -/
theorem final_second (c : Dev nD) : (dats m 0 c).arrAt 3 cfg0.N = secondArr m c :=
  (dats m 0 c).arrAt_eq_of_cover 3 (secondArr m c) (flushed_second m c) cover_second

/-! ## The host's sums after the region -/

theorem tail_first (c : Dev nD) :
    (Pipeline.afterTail₀ cfgs (dats m) 0 (V0 m) [hostOps1] c main_v2 : S_.Idx → EReal)
      = Host.reduceAdd (F := Ideal) (firstArr m c) (constant (F := Ideal) S_ .f32 0x00000000#32) reducesTo_S2x1x1_S_d0_1_2 h_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1_0)
      = firstArr m c :=
    (Pipeline.withArrays_arr spec0 launch0.win.arr_inj c (V0 m c) (fun w => (dats m 0 c).arrAt w cfg0.N) 2).trans (final_first m c)
  rw [e]

theorem tail_second (c : Dev nD) :
    (Pipeline.afterTail₀ cfgs (dats m) 0 (V0 m) [hostOps1] c main_v3 : S_.Idx → EReal)
      = Host.reduceAdd (F := Ideal) (secondArr m c) (constant (F := Ideal) S_ .f32 0x00000000#32) reducesTo_S2x1x1_S_d0_1_2 h_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1_1)
      = secondArr m c :=
    (Pipeline.withArrays_arr spec0 launch0.win.arr_inj c (V0 m c) (fun w => (dats m 0 c).arrAt w cfg0.N) 3).trans (final_second m c)
  rw [e]

/-! ## Two entries, one per core -/

/-- The entries of a 2 × 1 × 1 array are its two cores' entries. -/
def coreEquiv : Fin 2 ≃ S2x1x1.Idx where
  toFun k := ix3 k (0 : Fin 1) (0 : Fin 1)
  invFun i := i 0
  left_inv _ := rfl
  right_inv i := by
    refine Eq.trans ?_ (eq_ix3 i).symm
    have e1 : (i 1).val < 1 := (i 1).isLt
    have e2 : (i 2).val < 1 := (i 2).isLt
    have h1 : i 1 = (0 : Fin 1) := Fin.ext (by show (i 1).val = 0; omega)
    have h2 : i 2 = (0 : Fin 1) := Fin.ext (by show (i 2).val = 0; omega)
    rw [h1, h2]
    rfl

/-- The host's sum of a 2 × 1 × 1 array onto the zero word: the two cores' entries added. -/
theorem host_sum (A : S2x1x1.Idx → EReal) (i : S_.Idx) :
    Host.reduceAdd (F := Ideal) A (constant (F := Ideal) S_ .f32 0x00000000#32) reducesTo_S2x1x1_S_d0_1_2 h_S_ i
      = ∑ k ∈ range 2, A (ix3 (⟨k % 2, Nat.mod_lt _ (by norm_num)⟩ : Fin 2) (0 : Fin 1) (0 : Fin 1)) := by
  simp only [Host.reduceAdd, Ideal.hostReduceAdd_def]
  rw [Ideal.hostReduceAdd_total reducesTo_S2x1x1_S_d0_1_2 (fun b => b.elim0) A _ i]
  show w 0x00000000#32 + _ = _
  rw [w_zero, zero_add, ← Equiv.sum_comp coreEquiv A, Finset.sum_range]
  refine Finset.sum_congr rfl fun k _ => ?_
  exact congrArg A (congrArg (fun k' : Fin 2 => ix3 k' (0 : Fin 1) (0 : Fin 1)) (Fin.ext (Nat.mod_eq_of_lt k.isLt).symm))

/-! ## The results -/

/-- The kernel's first result is the mean of the first loss. -/
theorem result_first (c : Dev nD) :
    (Pipeline.afterTail₀ cfgs (dats m) 0 (V0 m) [hostOps1] c main_v2 : S_.Idx → EReal)
      = fun _ => mean hinge (X m c) (Tg m c) := by
  rw [tail_first]
  funext i
  rw [host_sum]
  have step : ∀ k ∈ range 2, firstArr m c (ix3 (⟨k % 2, Nat.mod_lt _ (by norm_num)⟩ : Fin 2) (0 : Fin 1) (0 : Fin 1))
      = ∑ j ∈ range 32, blockSum (entry hinge (X m c) (Tg m c)) (32 * k + j) * w 0x39000000#32 := by
    intro k hk
    have hk2 : k < 2 := Finset.mem_range.mp hk
    show accM m c (32 * (k % 2) + 31) = _
    rw [Nat.mod_eq_of_lt hk2, accM_run_end m c k hk2, zero_add]
  rw [Finset.sum_congr rfl step,
    blocks_eq_total _ (fun p q => entry_nonneg hinge hinge_nonneg (X m c) (Tg m c) p q) _, w_scale]
  rfl

/-- The kernel's second result is the mean of the second loss. -/
theorem result_second (c : Dev nD) :
    (Pipeline.afterTail₀ cfgs (dats m) 0 (V0 m) [hostOps1] c main_v3 : S_.Idx → EReal)
      = fun _ => mean hingeOff (X m c) (Tg m c) := by
  rw [tail_second]
  funext i
  rw [host_sum]
  have step : ∀ k ∈ range 2, secondArr m c (ix3 (⟨k % 2, Nat.mod_lt _ (by norm_num)⟩ : Fin 2) (0 : Fin 1) (0 : Fin 1))
      = ∑ j ∈ range 32, blockSum (entry hingeOff (X m c) (Tg m c)) (32 * k + j) * w 0x39000000#32 := by
    intro k hk
    have hk2 : k < 2 := Finset.mem_range.mp hk
    show accI m c (32 * (k % 2) + 31) = _
    rw [Nat.mod_eq_of_lt hk2, accI_run_end m c k hk2, zero_add]
  rw [Finset.sum_congr rfl step,
    blocks_eq_total _ (fun p q => entry_nonneg hingeOff hingeOff_nonneg (X m c) (Tg m c) p q) _, w_scale]
  rfl

/-! ## The run -/

/-- Every weakly fair execution of the idealized kernel terminates with its two results at the means of the two losses
    of its arguments, the arguments unchanged. -/
theorem run : θ_run defs (onTc (τ := τ) (main (F := Ideal))) ⟨m, fun _ => 0, ρ⟩ fun r => ∀ c : Dev nD,
      r.2.mem ((c.tc : Thread nD τ).loc main_v2) = (fun _ => mean hinge (X m c) (Tg m c))
      ∧ r.2.mem ((c.tc : Thread nD τ).loc main_v3) = (fun _ => mean hingeOff (X m c) (Tg m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_first m c),
     ((h c).2 main_v3 (Pipeline.mem_restRefs_of main_v3 (by decide) (by decide))).trans (result_second m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Result

end
-- ==== Proof.ReferenceResult.lean ====
/-
  The reference's two results, at the extended reals.

  The reference forms the whole 8192 × 10000 loss matrix — the same clamped margin, entry by entry, from the same
  comparison of a row's target with the column's number —, sums all of it onto zero, and multiplies the total by the
  quotient `1 / 8192`: the specification's `mean`.
-/
import proofs.«164756_j2078764171740_2_alg».proof.Proof.Gen.ReferenceIdeal.Read
import proofs.«164756_j2078764171740_2_alg».proof.Proof.HingeSpec
import Idealize.ShloMosaic.Lib.ValueIdx

noncomputable section

namespace Cert.ReferenceIdeal.RefResult

open Idealize.ShloMosaic Idealize.ShloMosaic.ValueIdx Cert.ReferenceIdeal Cert.ReferenceIdeal.Read Cert.HingeSpec Finset

variable (x0 : (⟨2, ![8192, 10000]⟩ : Shape).Idx → EReal) (x1 : (⟨1, ![8192]⟩ : Shape).Idx → BitVec 32)

/-- Whether column `q` is row `p`'s target, as the reference compares them. -/
theorem target_bit (p : Fin 8192) (q : Fin 10000) :
    val_main_v5 (F := Ideal) x1 (ix2 p q) = IntOp.cmpi .eq (x1 (ix1 p)) (BitVec.ofNat 32 q.val) := by
  rw [val_main_v5_apply, val_main_v3_apply, val_main_v1_apply, val_main_v0_apply, val_main_v4_apply, val_main_v2_apply,
    cmpi_eq_comm]
  have e : idx_main_v2 (idx_main_v4 (ix2 p q)) = ix1 p := funext fun a => match a with | ⟨0, _⟩ => rfl
  rw [e]

/-- Entry `(p, q)` of the first loss. -/
theorem loss_entry (p : Fin 8192) (q : Fin 10000) :
    val_main_v13 (F := Ideal) x0 x1 (ix2 p q)
      = hinge (IntOp.cmpi .eq (x1 (ix1 p)) (BitVec.ofNat 32 q.val)) (x0 (ix2 p q)) := by
  rw [val_main_v13_apply, val_main_v11_apply, val_main_v10_apply, val_main_v6_apply, val_main_v9_apply, val_main_v8_apply,
    val_main_v7_apply, val_main_v12_apply, val_main_cst_3_apply, val_main_call0_v0_apply, val_main_cst_apply,
    val_main_call0_v1_apply, val_main_cst_0_apply, val_main_call1_v0_apply, val_main_cst_1_apply,
    val_main_call1_v1_apply, val_main_cst_2_apply, target_bit]
  rfl

/-- Entry `(p, q)` of the second loss. -/
theorem lossOff_entry (p : Fin 8192) (q : Fin 10000) :
    val_main_v14 (F := Ideal) x0 x1 (ix2 p q)
      = hingeOff (IntOp.cmpi .eq (x1 (ix1 p)) (BitVec.ofNat 32 q.val)) (x0 (ix2 p q)) := by
  rw [val_main_v14_apply, val_main_call2_v1_apply, val_main_call2_v0_apply, val_main_cst_4_apply, loss_entry, target_bit]
  rfl

/-- A sum over the whole matrix of a function given entry by entry is the double sum over rows and columns. -/
theorem total (h : BitVec 1 → EReal → EReal) (f : (⟨2, ![8192, 10000]⟩ : Shape).Idx → EReal)
    (hf : ∀ (p : Fin 8192) (q : Fin 10000), f (ix2 p q) = h (IntOp.cmpi .eq (x1 (ix1 p)) (BitVec.ofNat 32 q.val)) (x0 (ix2 p q))) :
    ∑ j, f j = ∑ p ∈ range 8192, ∑ q ∈ range 10000, entry h x0 x1 p q := by
  rw [sum_idx2, Finset.sum_range]
  refine Finset.sum_congr rfl fun p _ => ?_
  rw [Finset.sum_range]
  exact Finset.sum_congr rfl fun q _ => (hf p q).trans (entry_fin h x0 x1 p q).symm

/-- The scale the reference multiplies by: the quotient of the words `1.0` and `8192.0`. -/
theorem scale (i : S_.Idx) : val_main_v15 (F := Ideal) i = ((1 / 8192 : ℝ) : EReal) := by
  rw [val_main_v15_apply, val_main_cst_5_apply, val_main_cst_6_apply]
  exact quotient_scale

/-- The reference's first result is the mean of the first loss. -/
theorem first_eq : val_main_v17 (F := Ideal) x0 x1 = fun _ => mean hinge x0 x1 := by
  funext i
  rw [val_main_v17_apply, val_main_v16_apply, val_main_cst_7_apply, scale,
    total x0 x1 hinge _ (loss_entry x0 x1)]
  show (w 0x00000000#32 + _) * _ = _
  rw [w_zero, zero_add]
  rfl

/-- The reference's second result is the mean of the second loss. -/
theorem second_eq : val_main_v19 (F := Ideal) x0 x1 = fun _ => mean hingeOff x0 x1 := by
  funext i
  rw [val_main_v19_apply, val_main_v18_apply, val_main_cst_8_apply, scale,
    total x0 x1 hingeOff _ (lossOff_entry x0 x1)]
  show (w 0x00000000#32 + _) * _ = _
  rw [w_zero, zero_add]
  rfl

end Cert.ReferenceIdeal.RefResult

end
-- ==== Proof.lean ====
/-
  A margin loss, reduced on chip against reduced on the host.

  Both programs take an input matrix (8192 × 10000) and one target column per row, form for every entry the clamped
  margin `max (s · (x − μ)) 0` — `s = −1, μ = 50` on a row's target column, `s = 1, μ = −25` elsewhere —, and return the
  mean over the 8192 rows of its total, and of its total with the target columns left out.

  The reference sums the whole matrix and multiplies by the quotient `1 / 8192`.  The kernel walks 64 blocks of 128
  rows on a 2 × 32 grid: each block's sum is multiplied by the word `2⁻¹³` and added into its core's accumulator, which
  is put to zero at the core's first block and written back after its last, and the host adds the two cores' entries.
  Over the extended reals the word `2⁻¹³` and the quotient are the same real, sums may be regrouped freely, and the
  factor moves across the sums because no entry is negative (Proof/HingeSpec.lean, `blocks_eq_total`): both programs
  return `mean` of their arguments.  The finiteness of the inputs is never used.

  The frames: the kernels' are their generated frame runs; the reference has no kernel, and its frame is its run with
  the results dropped.  The idealization rewrote nothing, so there is nothing to preserve.
-/
import proofs.«164756_j2078764171740_2_alg».proof.Defs
import proofs.«164756_j2078764171740_2_alg».proof.Proof.Gen.Kernel
import proofs.«164756_j2078764171740_2_alg».proof.Proof.Gen.Kernel.Skeleton
import proofs.«164756_j2078764171740_2_alg».proof.Proof.Gen.Kernel.Launch
import proofs.«164756_j2078764171740_2_alg».proof.Proof.Gen.Kernel.Points
import proofs.«164756_j2078764171740_2_alg».proof.Proof.Gen.Kernel.Frame
import proofs.«164756_j2078764171740_2_alg».proof.Proof.Gen.KernelIdeal
import proofs.«164756_j2078764171740_2_alg».proof.Proof.Gen.KernelIdeal.Skeleton
import proofs.«164756_j2078764171740_2_alg».proof.Proof.Gen.KernelIdeal.Launch
import proofs.«164756_j2078764171740_2_alg».proof.Proof.Gen.KernelIdeal.Points
import proofs.«164756_j2078764171740_2_alg».proof.Proof.Gen.KernelIdeal.Frame
import proofs.«164756_j2078764171740_2_alg».proof.Proof.Gen.ReferenceIdeal
import proofs.«164756_j2078764171740_2_alg».proof.Proof.Gen.Pre_finite_inputs
import proofs.«164756_j2078764171740_2_alg».proof.Proof.Gen.ReferenceIdeal.Run
import proofs.«164756_j2078764171740_2_alg».proof.Proof.Gen.ReferenceIdeal.Read
import proofs.«164756_j2078764171740_2_alg».proof.Proof.KernelResult
import proofs.«164756_j2078764171740_2_alg».proof.Proof.ReferenceResult
import Idealize.ShloMosaic.Adequacy
import Idealize.ShloMosaic.Init

noncomputable section

namespace Cert.Proof

open Idealize.ShloMosaic Idealize.SL.Sem Cert.HingeSpec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel ends at the two means of its arguments and the reference at the two means of
    its own: the same two numbers. -/
theorem algebraic : Cert.algebraic_KernelIdeal_ReferenceIdeal := by
  intro m ρ m' ρ' _ hagree
  refine ⟨fun c => fun _ => mean hinge (Cert.KernelIdeal.Acc.X m c) (Cert.KernelIdeal.Acc.Tg m c),
    fun c => fun _ => mean hingeOff (Cert.KernelIdeal.Acc.X m c) (Cert.KernelIdeal.Acc.Tg m c),
    Cert.KernelIdeal.Result.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v17_eq, Cert.ReferenceIdeal.RefResult.first_eq,
      (hagree c).1, (hagree c).2]
    rfl
  · rw [(h c).2.1, Cert.ReferenceIdeal.Read.val_main_v19_eq, Cert.ReferenceIdeal.RefResult.second_eq,
      (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
